-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S1 : Shape := ⟨1, ![1]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S16384x2048 .f32) (main_arg1 : FVec F S2048x2048 .f32) (main_arg2 : FVec F S1 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S16384x2048 : Shape := ⟨2, ![16384, 2048]⟩
abbrev S2048x2048 : Shape := ⟨2, ![2048, 2048]⟩
abbrev S1 : Shape := ⟨1, ![1]⟩
abbrev S_ : Shape := ⟨0, ![]⟩
abbrev S1024x2048 : Shape := ⟨2, ![1024, 2048]⟩

abbrev nBuf : Space → Nat
  | .hbm => 10
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S1, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S2048x2048, .bf16⟩
  | .hbm, ⟨9, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1_S_ : S1.ShapeCasts S_
  bcast_S_S2048x2048 : S_.BroadcastsInDim S2048x2048 (![] : Fin 0 → Fin S2048x2048.rank)
  bitsLt_bf16_f32 : FTy.bits .bf16 < FTy.bits .f32
  transposes_S2048x2048_S2048x2048_1_0 : S2048x2048.Transposes [1, 0] S2048x2048
  inb_S1024x2048_S1024x2048_0_0 : ∀ a, (![0, 0] : Fin 2 → Nat) a + S1024x2048.size a ≤ S1024x2048.size a
  h_S1024x2048 : 0 < S1024x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S1024x2048_S2048x2048_S1024x2048_1_0_0_1_n_n_wf : DotDims.WF S1024x2048 S2048x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S16384x2048.size a
  hwx0_2 : ∀ i : grid0.Coords, EltTy.bits .f32 = 32 ∨ (Rect.block (s := S16384x2048) S1024x2048.size (cc0_transform_2 i) (hinb0_2 i)).WholeWords (EltTy.packing .f32)

variable [Facts₀]

def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S1 : Shape := ⟨1, ![1]⟩
abbrev S1x1 : Shape := ⟨2, ![1, 1]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S1, .f32⟩
  | .hbm, ⟨3, _⟩ => ⟨S2048x2048, .f32⟩
  | .hbm, ⟨4, _⟩ => ⟨S1x1, .f32⟩
  | .hbm, ⟨5, _⟩ => ⟨S2048x2048, .f32⟩
  | .hbm, ⟨6, _⟩ => ⟨S2048x2048, .f32⟩
  | .hbm, ⟨7, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S2048x2048_0_1 : S1x1.BroadcastsInDim S2048x2048 (![0, 1] : Fin 2 → Fin S2048x2048.rank)
  dot_S16384x2048_S2048x2048_S16384x2048_1_1_0_0_n_n_wf : DotDims.WF S16384x2048 S2048x2048 S16384x2048 [1] [1] [0] [0] [] []

variable [Facts₀]

def dot_S16384x2048_S2048x2048_S16384x2048_1_1_0_0_n_n : DotDims S16384x2048 S2048x2048 S16384x2048 where
  lhsContracting := [1]
  rhsContracting := [1]
  lhsNonContracting := [0]
  rhsNonContracting := [0]
  lhsBatch := []
  rhsBatch := []
  wf := dot_S16384x2048_S2048x2048_S16384x2048_1_1_0_0_n_n_wf

class Facts : Prop extends Facts₀ where

variable [Facts]
-- ==== Proof.Spec.lean ====
/-
  The function both programs compute: a linear layer whose weight is binarized.

  For an input `x` of 16384 rows and 2048 columns, a weight `w` of 2048 rows (one per output feature) and 2048
  columns, and a one-entry scale `a`, entry `(r, o)` of the result is

      ∑ k, x (r, k) * (sign (w (o, k)) * a 0)

  on the extended reals: row `r` of `x` contracted with row `o` of the binarized weight `sign w · a 0`.
-/
import Idealize.ShloMosaic.Lib.ValueIdx
import Idealize.ShloMosaic.PureOps.Ideal

noncomputable section

namespace Cert.BinaryLinear

open Idealize.ShloMosaic Idealize.ShloMosaic.ValueIdx

/-- Entry `(o, k)` of the binarized weight: the sign of the weight's entry, scaled by the one scale entry. -/
def binarized (w : (⟨2, ![2048, 2048]⟩ : Shape).Idx → EReal) (a : (⟨1, ![1]⟩ : Shape).Idx → EReal)
    (o k : Fin 2048) : EReal :=
  Ideal.sign (w (ix2 o k)) * a (ix1 0)

/-- The binarized linear layer: entry `i = (r, o)` is row `r` of `x` contracted with row `o` of the binarized weight. -/
def G (x : (⟨2, ![16384, 2048]⟩ : Shape).Idx → EReal) (w : (⟨2, ![2048, 2048]⟩ : Shape).Idx → EReal)
    (a : (⟨1, ![1]⟩ : Shape).Idx → EReal) : (⟨2, ![16384, 2048]⟩ : Shape).Idx → EReal :=
  fun i => ∑ k : Fin 2048, x (ix2 (i 0) k) * binarized w a (i 1) k

end Cert.BinaryLinear

end
-- ==== Proof.Reference.lean ====
/-
  The reference's result is the binarized linear layer `G`.

  The reference takes the sign of the weight, spreads the one scale entry over the weight's shape (through a 1×1
  array), multiplies the two entry by entry, and contracts the input's columns with the product's columns. Read at
  entry `(r, o)` that is the sum over `k` of `x (r, k) * (sign (w (o, k)) * a 0)`, term by term the sum that
  defines `G`.
-/
import proofs.«170353_j1623497638680_2_alg».proof.Proof.Gen.ReferenceIdeal.Read
import proofs.«170353_j1623497638680_2_alg».proof.Proof.Spec

noncomputable section

namespace Cert.ReferenceIdeal.RefValue

open Cert.ReferenceIdeal Cert.ReferenceIdeal.Read Idealize.ShloMosaic Idealize.ShloMosaic.ValueIdx

/-- The contraction reads the input at (the result's row, `k`). -/
theorem lidx_eq (i : S16384x2048.Idx) (k : Fin 2048) : lidx_main_v4 i k = ix2 (i 0) k :=
  funext fun a => Fin.ext (by match a with | ⟨0, _⟩ => rfl | ⟨1, _⟩ => rfl)

/-- The contraction reads the scaled sign at (the result's column, `k`): the weight's row is the output feature. -/
theorem ridx_eq (i : S16384x2048.Idx) (k : Fin 2048) : ridx_main_v4 i k = ix2 (i 1) k :=
  funext fun a => Fin.ext (by match a with | ⟨0, _⟩ => rfl | ⟨1, _⟩ => rfl)

/-- Every entry of the spread scale is the scale's one entry. -/
theorem scale_idx_eq (j : S1x1.Idx) : idx_main_v1 j = ix1 0 :=
  funext fun a => Fin.ext (by match a with | ⟨0, _⟩ => rfl)

/-- The reference's result, as a function of its three arguments, is `G`. -/
theorem result_eq (x : (⟨S16384x2048, .f32⟩ : BufTy).Contents (Elt Ideal))
    (w : (⟨S2048x2048, .f32⟩ : BufTy).Contents (Elt Ideal)) (a : (⟨S1, .f32⟩ : BufTy).Contents (Elt Ideal)) :
    val_main_v4 (F := Ideal) x w a = Cert.BinaryLinear.G x w a := by
  funext i
  rw [val_main_v4_apply]
  unfold Cert.BinaryLinear.G Cert.BinaryLinear.binarized
  refine Finset.sum_congr rfl fun k _ => ?_
  rw [val_main_v3_apply, val_main_v0_apply, val_main_v2_apply, val_main_v1_apply, lidx_eq, ridx_eq, scale_idx_eq]
  rfl

end Cert.ReferenceIdeal.RefValue

end
-- ==== Proof.Weight.lean ====
/-
  The matrix the kernel's launch is given as its second operand.

  Before the launch the program takes the sign of the weight, multiplies every entry by the scale's one entry (the
  scale viewed as a scalar and spread over the weight's shape), narrows the product to bf16 — the identity on the
  extended reals — and swaps the two axes. So entry `(k, o)` of that operand is entry `(o, k)` of the binarized
  weight: `sign (w (o, k)) * a 0`.
-/
import proofs.«170353_j1623497638680_2_alg».proof.Proof.Gen.KernelIdeal.Frame
import proofs.«170353_j1623497638680_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Bridge

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The scalar shape has one index. -/
instance : Subsingleton S_.Idx := ⟨fun a b => funext fun d => d.elim0⟩

/-- The scale viewed as a scalar holds the scale's one entry. -/
theorem scalar_apply (a : S1.Idx → EReal) (j : S_.Idx) :
    shapeCast S_ a shapeCasts_S1_S_ j = a (ix1 0) :=
  shapeCast_apply a shapeCasts_S1_S_ j (ix1 0) rfl

/-- The scalar spread over the weight's shape holds the scalar everywhere. -/
theorem spread_apply (s : S_.Idx → EReal) (i : S2048x2048.Idx) :
    broadcastInDim S2048x2048 ![] bcast_S_S2048x2048 s i = s ix0 :=
  broadcastInDim_apply _ bcast_S_S2048x2048 s i ix0 (fun a => a.elim0)

/-- The launch's second operand, as the region finds it: the transposed, narrowed, scaled sign of the weight. -/
theorem operand_eq (c : Dev nD) :
    (V m c main_v5 : S2048x2048.Idx → EReal)
      = transpose S2048x2048 [1, 0]
          (truncf .bf16
            (mulf (F := Ideal) (Host.sign (F := Ideal) (m (c, Proc.devRef .tc main_arg1)))
              (broadcastInDim S2048x2048 ![] bcast_S_S2048x2048
                (shapeCast S_ (m (c, Proc.devRef .tc main_arg2)) shapeCasts_S1_S_)))
            bitsLt_bf16_f32)
          transposes_S2048x2048_S2048x2048_1_0 := by
  dsimp only [Gen.V, Gen.hostOps0]
  after_results
  rfl

/-- Entry `(k, o)` of the launch's second operand is entry `(o, k)` of the binarized weight. -/
theorem operand_apply (c : Dev nD) (k o : Fin 2048) :
    (V m c main_v5 : S2048x2048.Idx → EReal) (ix2 k o)
      = Cert.BinaryLinear.binarized (m ((c : Thread nD τ).loc main_arg1)) (m ((c : Thread nD τ).loc main_arg2)) o k := by
  rw [operand_eq, transpose_ix2_apply]
  show FloatOps.mulf (F := Ideal) (FloatOps.hostUnary (F := Ideal) .sign (m (c, Proc.devRef .tc main_arg1) (ix2 o k)))
      (broadcastInDim S2048x2048 ![] bcast_S_S2048x2048
        (shapeCast S_ (m (c, Proc.devRef .tc main_arg2)) shapeCasts_S1_S_) (ix2 o k)) = _
  rw [spread_apply, scalar_apply]
  rfl

end Cert.KernelIdeal.Bridge

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.Tile.lean ====
/-
  What the kernel's body computes on one tile.

  The body narrows its 1024×2048 tile of the input to bf16 (the identity on the extended reals), views the 2048×2048
  operand in its own shape (the identity), and multiplies the two on the matrix unit into a zero accumulator. So
  entry `(r, o)` of what it stores is the sum over `k` of `tile (r, k) * operand (k, o)`.
-/
import proofs.«170353_j1623497638680_2_alg».proof.Proof.Gen.KernelIdeal.Skeleton
import proofs.«170353_j1623497638680_2_alg».proof.Proof.LibPlainDot
import Idealize.ShloMosaic.Lib.Pipeline.Value
import Idealize.ShloMosaic.Lib.ValueIdx

noncomputable section

namespace Cert.KernelIdeal.Bridge

open Cert.KernelIdeal Cert.KernelIdeal.Gen Idealize.ShloMosaic Idealize.ShloMosaic.ValueIdx

/-- Entry `(r, o)` of the body's stored value: row `r` of the tile contracted with column `o` of the operand. -/
theorem tile_apply (x0 : Vec Ideal S1024x2048 .f32) (x1 : Vec Ideal S2048x2048 .bf16) (r : Fin 1024) (o : Fin 2048) :
    k0_pay1 (F := Ideal) x0 x1 (ix2 r o) = ∑ k : Fin 2048, x0 (ix2 r k) * x1 (ix2 k o) := by
  unfold k0_pay1
  show FloatOps.matmul (DotDims.plain 1024 2048 2048) none (truncf .bf16 x0 bitsLt_bf16_f32)
      (shapeCast S2048x2048 x1 shapeCasts_S2048x2048_S2048x2048)
      (constant (F := Ideal) ⟨2, ![1024, 2048]⟩ .f32 0x00000000#32) (ix2 r o) = _
  rw [shapeCast_self]
  exact Cert.Sage.matmul_plain_zero_apply none (truncf .bf16 x0 bitsLt_bf16_f32) x1 r o

end Cert.KernelIdeal.Bridge

end
-- ==== Proof.Rows.lean ====
/-
  From tiles to the whole result.

  The launch walks 16 grid points. At point `t` the input's window is rows `1024 t … 1024 t + 1023` of `x` (all
  2048 columns), the second operand's window is the whole 2048×2048 matrix, and the output's window is the same rows
  of the result. Entry `(r, o)` of the tile the body stores is row `r` of the input tile contracted with column `o`
  of the operand, that is row `1024 t + r` of `x` contracted with row `o` of the binarized weight: block `t` of `G`.
  Every row lies in exactly the block numbered by its quotient by 1024, so the 16 blocks cover the result, and after
  the run the result array is `G` of the three arguments.
-/
import proofs.«170353_j1623497638680_2_alg».proof.Proof.Gen.KernelIdeal.Value
import proofs.«170353_j1623497638680_2_alg».proof.Proof.Spec
import proofs.«170353_j1623497638680_2_alg».proof.Proof.Weight
import proofs.«170353_j1623497638680_2_alg».proof.Proof.Tile

set_option maxRecDepth 16384

noncomputable section

namespace Cert.KernelIdeal.Bridge

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body's loads and its store start at the tile's corner. -/
theorem corner : (![0, 0] : Fin 2 → Nat) = fun _ => 0 := funext fun a => by fin_cases a <;> rfl

/-- The printed index maps, decided over the 16 grid points: the input's and the output's windows sit at block row
    `t`, block column 0; the operand's window is always the whole matrix. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The result the run is to leave: `G` of the three arguments as the program was launched with them. -/
abbrev result (c : Dev nD) : S16384x2048.Idx → EReal :=
  Cert.BinaryLinear.G (m ((c : Thread nD τ).loc main_arg0)) (m ((c : Thread nD τ).loc main_arg1))
    (m ((c : Thread nD τ).loc main_arg2))

/-- What point `t` writes back is block `t` of the result. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero corner]
  simp only [View.ld_unit_zero (S := S1024x2048) corner, View.ld_unit_zero (S := S2048x2048) corner]
  obtain ⟨e00, e01, e10, e11, e20, e21⟩ := index_facts t
  funext j
  obtain ⟨r, o, rfl⟩ : ∃ (r : Fin 1024) (o : Fin 2048), j = ix2 r o := ⟨j 0, j 1, eq_ix2 j⟩
  show k0_pay1 (F := Ideal) (iblk m c 0 t) (iblk m c 1 t) (ix2 r o)
    = result m c (((cfg0.win 2).blk t).view.emb (ix2 r o))
  refine (tile_apply (iblk m c 0 t) (iblk m c 1 t) r o).trans ?_
  unfold result Cert.BinaryLinear.G
  refine Finset.sum_congr rfl fun k _ => ?_
  -- the input tile's entry (r, k) is x's entry (row of the output index, k)
  have hx : iblk m c 0 t (ix2 r k)
      = m ((c : Thread nD τ).loc main_arg0) (ix2 ((((cfg0.win 2).blk t).view.emb (ix2 r o)) 0) k) := by
    show V m c main_arg0 (((cfg0.win 0).blk t).view.emb (ix2 r k)) = _
    rw [V_main_arg0]
    refine congrArg _ (funext fun a => Fin.ext ?_)
    match a with
    | ⟨0, _⟩ =>
      show win0_0.index t (0 : Fin 2) * 1024 + 1 * r.val = win0_2.index t (0 : Fin 2) * 1024 + 1 * r.val
      omega
    | ⟨1, _⟩ =>
      show win0_0.index t (1 : Fin 2) * 2048 + 1 * k.val = k.val
      omega
  -- the operand's entry (k, o) is the binarized weight's entry (column of the output index, k)
  have hw : iblk m c 1 t (ix2 k o)
      = Cert.BinaryLinear.binarized (m ((c : Thread nD τ).loc main_arg1)) (m ((c : Thread nD τ).loc main_arg2))
          ((((cfg0.win 2).blk t).view.emb (ix2 r o)) 1) k := by
    have ho : (((cfg0.win 2).blk t).view.emb (ix2 r o)) 1 = o := Fin.ext (by
      show win0_2.index t (1 : Fin 2) * 2048 + 1 * o.val = o.val
      omega)
    rw [ho, ← operand_apply m c k o]
    show V m c main_v5 (((cfg0.win 1).blk t).view.emb (ix2 k o)) = _
    refine congrArg _ (funext fun a => Fin.ext ?_)
    match a with
    | ⟨0, _⟩ =>
      show win0_1.index t (0 : Fin 2) * 2048 + 1 * k.val = k.val
      omega
    | ⟨1, _⟩ =>
      show win0_1.index t (1 : Fin 2) * 2048 + 1 * o.val = o.val
      omega
  rw [hx, hw]

/-- An index of the result is in point `t`'s block iff each coordinate is in the block's range on its axis. -/
theorem mem_block (t : Fin cfg0.N) (i : S16384x2048.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v6).slice (win0_2.rect t)).set ↔ _
  rw [View.set_slice_whole, Rect.mem_set_unit]
  exact Iff.rfl

/-- Every index of the result lies in the block of the point numbered by its row's quotient by 1024. -/
theorem cover (i : S16384x2048.Idx) :
    ∃ t : Fin cfg0.N, (cfg0.win 2).flush t = true ∧ i ∈ ((cfg0.win 2).blk t).view.set := by
  have hi0 : (i 0).val < 16384 := idx2_lt0 i
  have hi1 : (i 1).val < 2048 := idx2_lt1 i
  have hN : (i 0).val / 1024 < grid0.N := by rw [N_0]; omega
  refine ⟨⟨(i 0).val / 1024, hN⟩, flush0_2 _, ?_⟩
  obtain ⟨-, -, -, -, e20, e21⟩ := index_facts ⟨(i 0).val / 1024, hN⟩
  rw [mem_block]
  intro a
  match a with
  | ⟨0, _⟩ =>
    show win0_2.index ⟨(i 0).val / 1024, hN⟩ (0 : Fin 2) * 1024 ≤ (i 0).val
      ∧ (i 0).val < win0_2.index ⟨(i 0).val / 1024, hN⟩ (0 : Fin 2) * 1024 + 1024
    have e : win0_2.index ⟨(i 0).val / 1024, hN⟩ (0 : Fin 2) = (i 0).val / 1024 := e20
    omega
  | ⟨1, _⟩ =>
    show win0_2.index ⟨(i 0).val / 1024, hN⟩ (1 : Fin 2) * 2048 ≤ (i 1).val
      ∧ (i 1).val < win0_2.index ⟨(i 0).val / 1024, hN⟩ (1 : Fin 2) * 2048 + 2048
    omega

/-- After the run the result array is `G` of the three arguments. -/
theorem final (c : Dev nD) : (dats m 0 c).arrAt 2 cfg0.N = result m c :=
  (dats m 0 c).arrAt_eq_of_cover 2 (result m c) (fun t _ => flushed_eq m c t) (cover)

/-- The kernel's run: every weakly fair execution terminates with the result array at `G` of the arguments and the
    arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Bridge

end
-- ==== Proof.lean ====
/-
  A linear layer with a binarized weight, computed by a tiled matrix product, against its one-line reference.

  Both programs compute, for an input `x` (16384 × 2048), a weight `w` (2048 × 2048, one row per output feature)
  and a one-entry scale `a`, the array whose entry `(r, o)` is

      ∑ k, x (r, k) * (sign (w (o, k)) * a 0)                                  (`Cert.BinaryLinear.G`, Proof/Spec.lean)

  on the extended reals.

  * The reference multiplies the weight's sign by the scale spread over the weight's shape and contracts the input's
    columns with that product's columns; read at an entry this is the sum above term by term (Proof/Reference.lean).
  * The kernel's program forms the same scaled sign before the launch, narrows it to bf16 and transposes it: entry
    `(k, o)` of the launch's operand is `sign (w (o, k)) * a 0` (Proof/Weight.lean). The body multiplies a
    1024-row tile of the input, narrowed to bf16, by that operand on the matrix unit into a zero accumulator: entry
    `(r, o)` of the stored tile is the sum over `k` of tile `(r, k)` times operand `(k, o)` (Proof/Tile.lean, over the
    plain product of Proof/LibPlainDot.lean). Grid point `t` works on rows `1024 t …`, so it writes block `t` of the
    array above, and the 16 blocks cover the result (Proof/Rows.lean).

  On the extended reals a change of float format is the identity, the matrix unit's product into zero and the host's
  contraction are both the plain sum of products, and the two sums have the same terms in the same order of factors,
  so no law beyond re-indexing the sum is used and the inputs' finiteness is never opened.

  The three frames are the programs' generated runs; the idealized kernel is the kernel's own text read on the
  extended reals (the idealization rewrote nothing), so the preservation claim has no conjunct.
-/
import proofs.«170353_j1623497638680_2_alg».proof.Defs
import proofs.«170353_j1623497638680_2_alg».proof.Proof.Gen.Kernel
import proofs.«170353_j1623497638680_2_alg».proof.Proof.Gen.Kernel.Frame
import proofs.«170353_j1623497638680_2_alg».proof.Proof.Gen.KernelIdeal
import proofs.«170353_j1623497638680_2_alg».proof.Proof.Gen.KernelIdeal.Frame
import proofs.«170353_j1623497638680_2_alg».proof.Proof.Gen.KernelIdeal.Value
import proofs.«170353_j1623497638680_2_alg».proof.Proof.Gen.ReferenceIdeal
import proofs.«170353_j1623497638680_2_alg».proof.Proof.Gen.ReferenceIdeal.Run
import proofs.«170353_j1623497638680_2_alg».proof.Proof.Gen.ReferenceIdeal.Read
import proofs.«170353_j1623497638680_2_alg».proof.Proof.Gen.Pre_finite_inputs
import proofs.«170353_j1623497638680_2_alg».proof.Proof.Reference
import proofs.«170353_j1623497638680_2_alg».proof.Proof.Rows

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories that agree on the three arguments, the kernel's result array ends at `G` of its arguments (the
    16 blocks, Proof/Rows.lean) and the reference's at `G` of its own (Proof/Reference.lean): one array. -/
theorem algebraic : Cert.algebraic_KernelIdeal_ReferenceIdeal := by
  intro m ρ m' ρ' _ hagree
  refine ⟨fun c => Cert.KernelIdeal.Bridge.result m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
